-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg9 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg6 : FVec F S128x128 .f32) (main_arg7 : FVec F S128 .f32) (main_arg8 : FVec F S128x128 .f32) (main_arg9 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_v33

def fn {F : FTy → Type} [FloatOps F] (main_arg0 : FVec F S100000x128 .f32) (main_arg1 : IVec S1600000 32) (main_arg2 : IVec S1600000 32) (main_arg3 : FVec F S128x128 .f32) (main_arg4 : FVec F S128 .f32) (main_arg5 : FVec F S128x128 .f32) (main_arg6 : FVec F S128x128 .f32) (main_arg7 : FVec F S128 .f32) (main_arg8 : FVec F S128x128 .f32) (main_arg9 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S1x128 : Shape := ⟨2, ![1, 128]⟩
abbrev S2000x128 : Shape := ⟨2, ![2000, 128]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩

abbrev nBuf : Space → Nat
  | .hbm => 40
  | .vmem => 17
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S1x128, .f32⟩
  | .hbm, ⟨11, _⟩ => ⟨S1x128, .f32⟩
  | .hbm, ⟨12, _⟩ => ⟨S1x128, .f32⟩
  | .hbm, ⟨13, _⟩ => ⟨S100000x128, .f32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x128, .f32⟩
  | .hbm, ⟨23, _⟩ => ⟨S_, .f32⟩
  | .hbm, ⟨24, _⟩ => ⟨S100000x128, .f32⟩
  | .hbm, ⟨25, _⟩ => ⟨S1600000x1, .i32⟩
  | .hbm, ⟨26, _⟩ => ⟨S100000x128, .f32⟩
  | .hbm, ⟨27, _⟩ => ⟨S_, .f32⟩
  | .hbm, ⟨28, _⟩ => ⟨S1600000, .f32⟩
  | .hbm, ⟨29, _⟩ => ⟨S_, .f32⟩
  | .hbm, ⟨30, _⟩ => ⟨S100000, .f32⟩
  | .hbm, ⟨31, _⟩ => ⟨S1600000x1, .i32⟩
  | .hbm, ⟨32, _⟩ => ⟨S100000, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S100000x1, .f32⟩
  | .hbm, ⟨37, _⟩ => ⟨S100000x128, .f32⟩
  | .hbm, ⟨38, _⟩ => ⟨S100000x128, .f32⟩
  | .hbm, ⟨39, _⟩ => ⟨S100000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S1x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S128x128, .f32⟩
  | .local _ .vmem, ⟨11, _⟩ => ⟨S128x128, .f32⟩
  | .local _ .vmem, ⟨12, _⟩ => ⟨S1x128, .f32⟩
  | .local _ .vmem, ⟨13, _⟩ => ⟨S128x128, .f32⟩
  | .local _ .vmem, ⟨14, _⟩ => ⟨S1x128, .f32⟩
  | .local _ .vmem, ⟨15, _⟩ => ⟨S2000x128, .f32⟩
  | .local _ .vmem, ⟨16, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg7_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem7_1 : DmaSem sig := 16

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S2000x128_S2000x128 : S2000x128.ShapeCasts S2000x128
  dot_S2000x128_S128x128_S2000x128_1_0_0_1_n_n_wf : DotDims.WF S2000x128 S128x128 S2000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S100000x128.size a
  hwx0_3 : ∀ i : grid0.Coords, EltTy.bits .f32 = 32 ∨ (Rect.block (s := S100000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x128.size a ≤ S100000x128.size a
  hwx1_7 : ∀ i : grid1.Coords, EltTy.bits .f32 = 32 ∨ (Rect.block (s := S100000x128) S2000x128.size (cc1_transform_7 i) (hinb1_7 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v3) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v1) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v2) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v23) S2000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S1x128 : Shape := ⟨2, ![1, 128]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩

abbrev nBuf : Space → Nat
  | .hbm => 58
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S100000x128, .f32⟩
  | .hbm, ⟨11, _⟩ => ⟨S1x128, .f32⟩
  | .hbm, ⟨12, _⟩ => ⟨S100000x128, .f32⟩
  | .hbm, ⟨13, _⟩ => ⟨S100000x128, .f32⟩
  | .hbm, ⟨14, _⟩ => ⟨S_, .f32⟩
  | .hbm, ⟨15, _⟩ => ⟨S100000x128, .f32⟩
  | .hbm, ⟨16, _⟩ => ⟨S100000x128, .f32⟩
  | .hbm, ⟨17, _⟩ => ⟨S_, .i32⟩
  | .hbm, ⟨18, _⟩ => ⟨S1600000, .i32⟩
  | .hbm, ⟨19, _⟩ => ⟨S1600000, .i1⟩
  | .hbm, ⟨20, _⟩ => ⟨S_, .i32⟩
  | .hbm, ⟨21, _⟩ => ⟨S1600000, .i32⟩
  | .hbm, ⟨22, _⟩ => ⟨S1600000, .i32⟩
  | .hbm, ⟨23, _⟩ => ⟨S1600000, .i32⟩
  | .hbm, ⟨24, _⟩ => ⟨S1600000x1, .i32⟩
  | .hbm, ⟨25, _⟩ => ⟨S1600000x128, .f32⟩
  | .hbm, ⟨26, _⟩ => ⟨S_, .f32⟩
  | .hbm, ⟨27, _⟩ => ⟨S100000x128, .f32⟩
  | .hbm, ⟨28, _⟩ => ⟨S1600000x1, .i32⟩
  | .hbm, ⟨29, _⟩ => ⟨S100000x128, .f32⟩
  | .hbm, ⟨30, _⟩ => ⟨S_, .f32⟩
  | .hbm, ⟨31, _⟩ => ⟨S1600000, .f32⟩
  | .hbm, ⟨32, _⟩ => ⟨S_, .f32⟩
  | .hbm, ⟨33, _⟩ => ⟨S100000, .f32⟩
  | .hbm, ⟨34, _⟩ => ⟨S1600000x1, .i32⟩
  | .hbm, ⟨35, _⟩ => ⟨S100000, .f32⟩
  | .hbm, ⟨36, _⟩ => ⟨S_, .f32⟩
  | .hbm, ⟨37, _⟩ => ⟨S100000, .f32⟩
  | .hbm, ⟨38, _⟩ => ⟨S100000, .f32⟩
  | .hbm, ⟨39, _⟩ => ⟨S100000x1, .f32⟩
  | .hbm, ⟨40, _⟩ => ⟨S100000x128, .f32⟩
  | .hbm, ⟨41, _⟩ => ⟨S100000x128, .f32⟩
  | .hbm, ⟨42, _⟩ => ⟨S100000x128, .f32⟩
  | .hbm, ⟨43, _⟩ => ⟨S100000x128, .f32⟩
  | .hbm, ⟨44, _⟩ => ⟨S100000x128, .f32⟩
  | .hbm, ⟨45, _⟩ => ⟨S1x128, .f32⟩
  | .hbm, ⟨46, _⟩ => ⟨S100000x128, .f32⟩
  | .hbm, ⟨47, _⟩ => ⟨S100000x128, .f32⟩
  | .hbm, ⟨48, _⟩ => ⟨S_, .f32⟩
  | .hbm, ⟨49, _⟩ => ⟨S100000x128, .f32⟩
  | .hbm, ⟨50, _⟩ => ⟨S100000x128, .f32⟩
  | .hbm, ⟨51, _⟩ => ⟨S100000x128, .f32⟩
  | .hbm, ⟨52, _⟩ => ⟨S1x128, .f32⟩
  | .hbm, ⟨53, _⟩ => ⟨S100000x128, .f32⟩
  | .hbm, ⟨54, _⟩ => ⟨S100000x128, .f32⟩
  | .hbm, ⟨55, _⟩ => ⟨S_, .f32⟩
  | .hbm, ⟨56, _⟩ => ⟨S100000x128, .f32⟩
  | .hbm, ⟨57, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call0_cst : Ref sig .tc := ⟨.hbm, 14, rfl⟩
abbrev main_call0_v0 : Ref sig .tc := ⟨.hbm, 15, rfl⟩
abbrev main_v4 : Ref sig .tc := ⟨.hbm, 16, rfl⟩
abbrev main_c : Ref sig .tc := ⟨.hbm, 17, rfl⟩
abbrev main_v5 : Ref sig .tc := ⟨.hbm, 18, rfl⟩
abbrev main_v6 : Ref sig .tc := ⟨.hbm, 19, rfl⟩
abbrev main_c_0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_1 : Ref sig .tc := ⟨.hbm, 30, rfl⟩
abbrev main_v15 : Ref sig .tc := ⟨.hbm, 31, rfl⟩
abbrev main_cst_2 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_3 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_call1_cst : Ref sig .tc := ⟨.hbm, 48, rfl⟩
abbrev main_call1_v0 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_call2_cst : Ref sig .tc := ⟨.hbm, 55, rfl⟩
abbrev main_call2_v0 : Ref sig .tc := ⟨.hbm, 56, rfl⟩
abbrev main_v35 : Ref sig .tc := ⟨.hbm, 57, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf

class Facts : Prop extends Facts₀ where

variable [Facts]
-- ==== Proof.WholeRun.lean ====
/-
  The whole program's run, with its result read. The program is: three bias vectors laid out as rows, the first
  kernel, the edge aggregation on the host, the second kernel. Every weakly fair execution terminates with each buffer
  holding what this chain of stages leaves in it; in particular the result buffer holds what the second kernel's
  write-backs leave, and the ten argument arrays are unchanged.
-/
import proofs.«154685_j49357764166103_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, without a fault; the result buffer ends at what the last stage leaves in
    it, and the arguments end as launched. -/
theorem run_result : θ_run defs (onTc (τ := τ) (main (F := F))) ⟨m, fun _ => 0, ρ⟩ (fun r => ∀ c : Dev nD,
      r.2.mem ((c.tc : Thread nD τ).loc main_v23) = W4 m ρ c (Proc.devRef .tc main_v23)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v23 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c)⟩)

end Cert.KernelIdeal.Whole

end
-- ==== Proof.BiasRow.lean ====
/-
  A bias vector of 128 entries laid out as one row: the 1 x 128 array the kernels read their bias from. Its entry
  (0, q) is the vector's entry q.
-/
import proofs.«154685_j49357764166103_1_alg».proof.Proof.Gen.KernelIdeal
import Idealize.ShloMosaic.PureOps.Ideal
import Idealize.ShloMosaic.Lib.ValueIdx
import Idealize.ShloMosaic.Lib.ValueLayout

noncomputable section

namespace Cert.KernelIdeal.Tile

open Cert.KernelIdeal Cert.KernelIdeal.Gen Idealize.ShloMosaic Idealize.ShloMosaic.ValueIdx

/-- The bias vector as a row. -/
def biasRow (b : FVec Ideal S128 .f32) : FVec Ideal S1x128 .f32 := shapeCast S1x128 b shapeCasts_S128_S1x128

/-- Entry (0, q) of the row is entry q of the vector. -/
theorem biasRow_apply (b : FVec Ideal S128 .f32) (q : Fin 128) :
    biasRow b (ix2 (n0 := 1) (n1 := 128) (0 : Fin 1) q) = b (ix1 q) :=
  shapeCast_a_1a_apply b shapeCasts_S128_S1x128 (0 : Fin 1) q

end Cert.KernelIdeal.Tile

end
-- ==== Proof.TileProduct.lean ====
/-
  One block of a dense layer. A tile of 2000 rows times a 128 x 128 weight matrix, accumulated from zero, read
  at row p and column q, is the plain sum over k of tile(p, k) * weight(k, q) on the extended reals; and the bias row,
  kept as a 1 x 128 array and repeated down the 2000 rows, read at (p, q), is bias(0, q).
-/
import proofs.«154685_j49357764166103_1_alg».proof.Proof.Gen.KernelIdeal
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Tile

open Cert.KernelIdeal Cert.KernelIdeal.Gen Idealize.ShloMosaic Idealize.ShloMosaic.ValueIdx

/-- The left operand's index of the tile product at output (p, q) and contraction position k is (p, k). -/
theorem lhs_at (i : S2000x128.Idx) (k : Fin 128) :
    dot_S2000x128_S128x128_S2000x128_1_0_0_1_n_n.lhsIdx i ((contrEquiv1 dot_S2000x128_S128x128_S2000x128_1_0_0_1_n_n 128 rfl rfl).symm k)
      = ix2 (n0 := 2000) (n1 := 128) (i 0) k := by
  have hk := contrEquiv1_symm_val dot_S2000x128_S128x128_S2000x128_1_0_0_1_n_n 128 rfl rfl k
  funext a
  apply Fin.ext
  match a with
  | ⟨0, _⟩ =>
    show (dot_S2000x128_S128x128_S2000x128_1_0_0_1_n_n.lhsIdx i _ 0).val = (i 0).val
    unfold DotDims.lhsIdx
    rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
    rfl
  | ⟨1, _⟩ =>
    exact (dot_S2000x128_S128x128_S2000x128_1_0_0_1_n_n.lhsIdx_val_of_single rfl i _).trans hk

/-- The right operand's index there is (k, q). -/
theorem rhs_at (i : S2000x128.Idx) (k : Fin 128) :
    dot_S2000x128_S128x128_S2000x128_1_0_0_1_n_n.rhsIdx i ((contrEquiv1 dot_S2000x128_S128x128_S2000x128_1_0_0_1_n_n 128 rfl rfl).symm k)
      = ix2 (n0 := 128) (n1 := 128) k (i 1) := by
  have hk := contrEquiv1_symm_val dot_S2000x128_S128x128_S2000x128_1_0_0_1_n_n 128 rfl rfl k
  funext a
  apply Fin.ext
  match a with
  | ⟨0, _⟩ =>
    exact (dot_S2000x128_S128x128_S2000x128_1_0_0_1_n_n.rhsIdx_val_of_single rfl i _).trans hk
  | ⟨1, _⟩ =>
    show (dot_S2000x128_S128x128_S2000x128_1_0_0_1_n_n.rhsIdx i _ 1).val = (i 1).val
    unfold DotDims.rhsIdx
    rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
    rfl

/-- A tile times a weight matrix, accumulated from zero: entry (p, q) is the sum over k of tile(p, k) * weight(k, q). -/
theorem product_apply {φ₁ φ₂ : FTy} (a : FVec Ideal S2000x128 φ₁) (w : FVec Ideal S128x128 φ₂) (p : Fin 2000) (q : Fin 128) :
    matmul dot_S2000x128_S128x128_S2000x128_1_0_0_1_n_n none a w (constant (F := Ideal) S2000x128 .f32 0x00000000#32) (ix2 p q)
      = ∑ k : Fin 128, a (ix2 p k) * w (ix2 k q) := by
  refine (Ideal.matmul_constant_zero_apply dot_S2000x128_S128x128_S2000x128_1_0_0_1_n_n none a w (ix2 p q)).trans ?_
  rw [← Equiv.sum_comp (contrEquiv1 dot_S2000x128_S128x128_S2000x128_1_0_0_1_n_n 128 rfl rfl).symm]
  refine Finset.sum_congr rfl fun k _ => ?_
  rw [lhs_at, rhs_at]

/-- The bias row repeated down the tile's rows: entry (p, q) is bias(0, q). -/
theorem bias_rows_apply (b : Vec Ideal S1x128 .f32) (p : Fin 2000) (q : Fin 128) :
    broadcastTo S2000x128 (shapeCast S1x128 b shapeCasts_S1x128_S1x128) broadcasts_S1x128_S2000x128 (ix2 p q)
      = b (ix2 (0 : Fin 1) q) := by
  rw [shapeCast_self]
  exact ValueIdx.broadcastTo_1b_ab_apply b broadcasts_S1x128_S2000x128 p q

end Cert.KernelIdeal.Tile

end
-- ==== Proof.TileValues.lean ====
/-
  What each kernel body stores, entry by entry, at the ideal values (where rounding to bf16 is the identity).
  First layer: entry (p, q) of a tile's result is max(sum_k x(p, k) * w(k, q) + b(0, q), 0).
  Second kernel: with a(p, k) = max((sum_j h(p, j) * ws(j, k) + sum_j hn(p, j) * wn(j, k)) + bs(0, k), 0) the hidden
  activation, entry (p, q) is max(sum_k a(p, k) * w2(k, q) + b2(0, q), 0).
-/
import proofs.«154685_j49357764166103_1_alg».proof.Proof.Gen.KernelIdeal.Skeleton
import proofs.«154685_j49357764166103_1_alg».proof.Proof.TileProduct

noncomputable section

namespace Cert.KernelIdeal.Tile

open Cert.KernelIdeal Cert.KernelIdeal.Gen Idealize.ShloMosaic Idealize.ShloMosaic.ValueIdx

/-- The first layer's tile: a dense layer with bias, then the positive part. -/
theorem first_layer_apply (x : Vec Ideal S2000x128 .f32) (w : Vec Ideal S128x128 .f32) (b : Vec Ideal S1x128 .f32)
    (p : Fin 2000) (q : Fin 128) :
    k0_pay1 x w b (ix2 p q)
      = max ((∑ k : Fin 128, x (ix2 p k) * w (ix2 k q)) + b (ix2 (0 : Fin 1) q)) (Ideal.ofBits .f32 0x00000000#32) := by
  unfold k0_pay1
  exact congrArg₂ max (congrArg₂ (· + ·) (product_apply _ _ p q) (bias_rows_apply b p q)) rfl

/-- The second kernel's tile: the combined hidden activation (self term plus neighbour term plus bias, positive
    part), then a dense layer with bias and the positive part. -/
theorem second_layer_apply (h hn : Vec Ideal S2000x128 .f32) (ws wn : Vec Ideal S128x128 .f32) (bs : Vec Ideal S1x128 .f32)
    (w2 : Vec Ideal S128x128 .f32) (b2 : Vec Ideal S1x128 .f32) (p : Fin 2000) (q : Fin 128) :
    k1_pay1 h hn ws wn bs w2 b2 (ix2 p q)
      = max ((∑ k : Fin 128,
              max (((∑ j : Fin 128, h (ix2 p j) * ws (ix2 j k)) + (∑ j : Fin 128, hn (ix2 p j) * wn (ix2 j k)))
                    + bs (ix2 (0 : Fin 1) k)) (Ideal.ofBits .f32 0x00000000#32)
                * w2 (ix2 k q))
             + b2 (ix2 (0 : Fin 1) q)) (Ideal.ofBits .f32 0x00000000#32) := by
  unfold k1_pay1
  simp only [shapeCast_self]
  exact congrArg₂ max (congrArg₂ (· + ·)
    ((product_apply _ _ p q).trans (Finset.sum_congr rfl fun k _ => congrArg₂ (· * ·)
      (congrArg₂ max (congrArg₂ (· + ·) (congrArg₂ (· + ·) (product_apply _ _ p k) (product_apply _ _ p k))
        (broadcastTo_1b_ab_apply bs broadcasts_S1x128_S2000x128 p k)) rfl) rfl))
    (broadcastTo_1b_ab_apply b2 broadcasts_S1x128_S2000x128 p q)) rfl

end Cert.KernelIdeal.Tile

end
-- ==== Proof.FirstLayerArray.lean ====
/-
  The first kernel's result array. The grid has 50 points; point t reads rows 2000 t .. 2000 t + 1999 of the
  features, the whole weight matrix and the whole bias row, and writes rows 2000 t .. 2000 t + 1999 of the result. So
  whatever the arrays hold when the kernel is entered, the result array ends as ONE function of them: entry (r, q) is
  max(sum_k x(r, k) * w(k, q) + b(0, q), 0) — row r lies in the block of point r / 2000, and the 50 blocks tile the rows.
-/
import proofs.«154685_j49357764166103_1_alg».proof.Proof.Gen.KernelIdeal.Frame
import proofs.«154685_j49357764166103_1_alg».proof.Proof.TileValues
import Idealize.ShloMosaic.Lib.Pipeline.Value

set_option maxRecDepth 16384

noncomputable section

namespace Cert.KernelIdeal.FirstLayer

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The dense layer with bias and positive part, as a function of whole arrays. -/
def layer (x : FVec Ideal S100000x128 .f32) (w : FVec Ideal S128x128 .f32) (b : FVec Ideal S1x128 .f32) :
    FVec Ideal S100000x128 .f32 :=
  fun i => max ((∑ k : Fin 128, x (ix2 (n0 := 100000) (n1 := 128) (i 0) k) * w (ix2 (n0 := 128) (n1 := 128) k (i 1)))
    + b (ix2 (n0 := 1) (n1 := 128) (0 : Fin 1) (i 1))) (Ideal.ofBits .f32 0x00000000#32)

/-- The layer's entry at row r and column q. -/
theorem layer_apply (x : FVec Ideal S100000x128 .f32) (w : FVec Ideal S128x128 .f32) (b : FVec Ideal S1x128 .f32)
    (r : Fin 100000) (q : Fin 128) :
    layer x w b (ix2 r q)
      = max ((∑ k : Fin 128, x (ix2 r k) * w (ix2 k q)) + b (ix2 (0 : Fin 1) q)) (Ideal.ofBits .f32 0x00000000#32) := rfl

/-- A tile's entry is the layer's entry, when the tile's row of features, the weights and the bias row are the
    arrays' at the matching places. -/
theorem tile_entry (x : Vec Ideal S2000x128 .f32) (w : Vec Ideal S128x128 .f32) (b : Vec Ideal S1x128 .f32)
    (X : FVec Ideal S100000x128 .f32) (W : FVec Ideal S128x128 .f32) (B : FVec Ideal S1x128 .f32)
    (j : S2000x128.Idx) (i : S100000x128.Idx)
    (hx : ∀ k : Fin 128, x (ix2 (n0 := 2000) (n1 := 128) (j 0) k) = X (ix2 (n0 := 100000) (n1 := 128) (i 0) k))
    (hw : ∀ k : Fin 128, w (ix2 (n0 := 128) (n1 := 128) k (j 1)) = W (ix2 (n0 := 128) (n1 := 128) k (i 1)))
    (hb : b (ix2 (n0 := 1) (n1 := 128) (0 : Fin 1) (j 1)) = B (ix2 (n0 := 1) (n1 := 128) (0 : Fin 1) (i 1))) :
    k0_pay1 x w b j = layer X W B i := by
  obtain ⟨p, q, rfl⟩ : ∃ (p : Fin 2000) (q : Fin 128), j = ix2 p q := ⟨j 0, j 1, eq_ix2 j⟩
  have hx' : ∀ k : Fin 128, x (ix2 p k) = X (ix2 (n0 := 100000) (n1 := 128) (i 0) k) := hx
  have hw' : ∀ k : Fin 128, w (ix2 k q) = W (ix2 (n0 := 128) (n1 := 128) k (i 1)) := hw
  have hb' : b (ix2 (0 : Fin 1) q) = B (ix2 (n0 := 1) (n1 := 128) (0 : Fin 1) (i 1)) := hb
  rw [Tile.first_layer_apply, hb']
  unfold layer
  simp only [hx', hw']

/-- The block index maps, decided over the 50 points: the feature rows move with the result rows, point t has row
    block t, and every other block index is zero. -/
theorem index_facts : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point t writes back is block t of the layer of the arrays as the kernel finds them. -/
theorem flushed_eq (c : Dev nD) (t : Fin cfg0.N) :
    (dat0 V c).flushed 3 t
      = ((cfg0.win 3).blk t).view.read (Elt Ideal) (layer (V c main_arg0) (V c main_arg3) (V c main_v0)) := by
  show (cfg0.win 3).cut (grid0.coords t) ((dat0 V c).after 3 t) = _
  rw [after0_3]
  unfold out0_3
  rw [View.canon_unit_zero zero_offsets]
  simp only [View.ld_unit_zero (S := S2000x128) zero_offsets, View.ld_unit_zero (S := S128x128) zero_offsets,
    View.ld_unit_zero (S := S1x128) zero_offsets]
  obtain ⟨e0, e1, e2, e3, e4, e5, e6, e7⟩ := index_facts t
  funext j
  show k0_pay1 (iblk0 V c 0 t) (iblk0 V c 1 t) (iblk0 V c 2 t) j
    = layer (V c main_arg0) (V c main_arg3) (V c main_v0) (((cfg0.win 3).blk t).view.emb j)
  refine tile_entry (iblk0 V c 0 t) (iblk0 V c 1 t) (iblk0 V c 2 t) (V c main_arg0) (V c main_arg3) (V c main_v0) j
    (((cfg0.win 3).blk t).view.emb j) (fun k => ?_) (fun k => ?_) ?_
  · show V c main_arg0 (((cfg0.win 0).blk t).view.emb (ix2 (n0 := 2000) (n1 := 128) (j 0) k)) = V c main_arg0 _
    refine congrArg (V c main_arg0) (funext fun a => Fin.ext ?_)
    match a with
    | ⟨0, _⟩ =>
      show win0_0.index t (0 : Fin 2) * 2000 + 1 * (j 0).val = win0_3.index t (0 : Fin 2) * 2000 + 1 * (j 0).val
      omega
    | ⟨1, _⟩ =>
      show win0_0.index t (1 : Fin 2) * 128 + 1 * k.val = k.val
      omega
  · show V c main_arg3 (((cfg0.win 1).blk t).view.emb (ix2 (n0 := 128) (n1 := 128) k (j 1))) = V c main_arg3 _
    refine congrArg (V c main_arg3) (funext fun a => Fin.ext ?_)
    match a with
    | ⟨0, _⟩ =>
      show win0_1.index t (0 : Fin 2) * 128 + 1 * k.val = k.val
      omega
    | ⟨1, _⟩ =>
      show win0_1.index t (1 : Fin 2) * 128 + 1 * (j 1).val = win0_3.index t (1 : Fin 2) * 128 + 1 * (j 1).val
      omega
  · show V c main_v0 (((cfg0.win 2).blk t).view.emb (ix2 (n0 := 1) (n1 := 128) (0 : Fin 1) (j 1))) = V c main_v0 _
    refine congrArg (V c main_v0) (funext fun a => Fin.ext ?_)
    match a with
    | ⟨0, _⟩ =>
      show win0_2.index t (0 : Fin 2) * 1 + 1 * 0 = 0
      omega
    | ⟨1, _⟩ =>
      show win0_2.index t (1 : Fin 2) * 128 + 1 * (j 1).val = win0_3.index t (1 : Fin 2) * 128 + 1 * (j 1).val
      omega

/-- An entry of the result array lies in point t's block iff each coordinate is in the block's range. -/
theorem mem_block (t : Fin cfg0.N) (i : S100000x128.Idx) :
    i ∈ ((cfg0.win 3).blk t).view.set ↔ ∀ a : Fin 2, win0_3.index t a * S2000x128.size a ≤ (i a).val
      ∧ (i a).val < win0_3.index t a * S2000x128.size a + S2000x128.size a := by
  show i ∈ ((View.whole main_v3).slice (win0_3.rect t)).set ↔ _
  rw [View.set_slice_whole, Rect.mem_set_unit]
  exact Iff.rfl

/-- Every entry of the result array is written by some point: row r by point r / 2000. -/
theorem covered (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 50 := N_0
  let t : Fin cfg0.N := ⟨(i 0).val / 2000, by rw [hN]; omega⟩
  have ht : t.val = (i 0).val / 2000 := rfl
  obtain ⟨e0, e1, e2, e3, e4, e5, e6, e7⟩ := index_facts t
  refine ⟨t, flush0_3 t, ?_⟩
  rw [mem_block]
  intro a
  match a with
  | ⟨0, _⟩ =>
    show win0_3.index t (0 : Fin 2) * 2000 ≤ (i 0).val ∧ (i 0).val < win0_3.index t (0 : Fin 2) * 2000 + 2000
    omega
  | ⟨1, _⟩ =>
    show win0_3.index t (1 : Fin 2) * 128 ≤ (i 1).val ∧ (i 1).val < win0_3.index t (1 : Fin 2) * 128 + 128
    omega

/-- The result array after the kernel: the layer of the arrays as the kernel finds them. -/
theorem result_array (c : Dev nD) :
    (dat0 V c).arrAt 3 cfg0.N = layer (V c main_arg0) (V c main_arg3) (V c main_v0) :=
  (dat0 V c).arrAt_eq_of_cover 3 (layer (V c main_arg0) (V c main_arg3) (V c main_v0))
    (fun t _ => flushed_eq V c t) covered

end Cert.KernelIdeal.FirstLayer

end
-- ==== Proof.SecondLayerArray.lean ====
/-
  The second kernel's result array. Its grid also has 50 points; point t reads rows 2000 t .. 2000 t + 1999 of the
  hidden features and of the aggregated neighbour features, the three weight matrices and the two bias rows whole, and
  writes rows 2000 t .. 2000 t + 1999 of the result. So the result array ends as ONE function of the arrays as the kernel
  finds them: with a(r, k) = max((sum_j h(r, j) * ws(j, k) + sum_j hn(r, j) * wn(j, k)) + bs(0, k), 0), entry (r, q) is
  max(sum_k a(r, k) * w2(k, q) + b2(0, q), 0).
-/
import proofs.«154685_j49357764166103_1_alg».proof.Proof.Gen.KernelIdeal.Frame
import proofs.«154685_j49357764166103_1_alg».proof.Proof.TileValues
import Idealize.ShloMosaic.Lib.Pipeline.Value

set_option maxRecDepth 16384

noncomputable section

namespace Cert.KernelIdeal.SecondLayer

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The combine step and the output layer, as a function of whole arrays. -/
def layer (h hn : FVec Ideal S100000x128 .f32) (ws wn : FVec Ideal S128x128 .f32) (bs : FVec Ideal S1x128 .f32)
    (w2 : FVec Ideal S128x128 .f32) (b2 : FVec Ideal S1x128 .f32) : FVec Ideal S100000x128 .f32 :=
  fun i => max ((∑ k : Fin 128,
      max (((∑ j : Fin 128, h (ix2 (n0 := 100000) (n1 := 128) (i 0) j) * ws (ix2 (n0 := 128) (n1 := 128) j k))
            + (∑ j : Fin 128, hn (ix2 (n0 := 100000) (n1 := 128) (i 0) j) * wn (ix2 (n0 := 128) (n1 := 128) j k)))
          + bs (ix2 (n0 := 1) (n1 := 128) (0 : Fin 1) k)) (Ideal.ofBits .f32 0x00000000#32)
        * w2 (ix2 (n0 := 128) (n1 := 128) k (i 1)))
    + b2 (ix2 (n0 := 1) (n1 := 128) (0 : Fin 1) (i 1))) (Ideal.ofBits .f32 0x00000000#32)

/-- The layer's entry at row r and column q. -/
theorem layer_apply (h hn : FVec Ideal S100000x128 .f32) (ws wn : FVec Ideal S128x128 .f32) (bs : FVec Ideal S1x128 .f32)
    (w2 : FVec Ideal S128x128 .f32) (b2 : FVec Ideal S1x128 .f32) (r : Fin 100000) (q : Fin 128) :
    layer h hn ws wn bs w2 b2 (ix2 r q)
      = max ((∑ k : Fin 128,
              max (((∑ j : Fin 128, h (ix2 r j) * ws (ix2 j k)) + (∑ j : Fin 128, hn (ix2 r j) * wn (ix2 j k)))
                    + bs (ix2 (0 : Fin 1) k)) (Ideal.ofBits .f32 0x00000000#32)
                * w2 (ix2 k q))
             + b2 (ix2 (0 : Fin 1) q)) (Ideal.ofBits .f32 0x00000000#32) := rfl

/-- A tile's entry is the layer's entry, when the tile's rows of the two feature arrays are the arrays' rows at the
    matching place and the weights and bias rows are the arrays' own. -/
theorem tile_entry (h hn : Vec Ideal S2000x128 .f32) (ws wn : Vec Ideal S128x128 .f32) (bs : Vec Ideal S1x128 .f32)
    (w2 : Vec Ideal S128x128 .f32) (b2 : Vec Ideal S1x128 .f32)
    (H HN : FVec Ideal S100000x128 .f32) (j : S2000x128.Idx) (i : S100000x128.Idx)
    (hh : ∀ k : Fin 128, h (ix2 (n0 := 2000) (n1 := 128) (j 0) k) = H (ix2 (n0 := 100000) (n1 := 128) (i 0) k))
    (hhn : ∀ k : Fin 128, hn (ix2 (n0 := 2000) (n1 := 128) (j 0) k) = HN (ix2 (n0 := 100000) (n1 := 128) (i 0) k))
    (hcol : (j 1).val = (i 1).val) :
    k1_pay1 h hn ws wn bs w2 b2 j = layer H HN ws wn bs w2 b2 i := by
  obtain ⟨p, q, rfl⟩ : ∃ (p : Fin 2000) (q : Fin 128), j = ix2 p q := ⟨j 0, j 1, eq_ix2 j⟩
  obtain ⟨r, s, rfl⟩ : ∃ (r : Fin 100000) (s : Fin 128), i = ix2 r s := ⟨i 0, i 1, eq_ix2 i⟩
  have hh' : ∀ k : Fin 128, h (ix2 p k) = H (ix2 r k) := hh
  have hhn' : ∀ k : Fin 128, hn (ix2 p k) = HN (ix2 r k) := hhn
  have hq : q = s := Fin.ext hcol
  subst hq
  rw [Tile.second_layer_apply]
  simp only [hh', hhn']
  first | rfl | done

/-- The block index maps, decided over the 50 points: both feature arrays move with the result rows, point t has row
    block t, and every other block index is zero. -/
theorem index_facts : ∀ t : Fin cfg1.N, win1_0.index t (0 : Fin 2) = win1_7.index t (0 : Fin 2)
    ∧ win1_0.index t (1 : Fin 2) = 0
    ∧ win1_1.index t (0 : Fin 2) = win1_7.index t (0 : Fin 2)
    ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- What point t writes back is block t of the layer of the arrays as the kernel finds them. -/
theorem flushed_eq (c : Dev nD) (t : Fin cfg1.N) :
    (dat1 V c).flushed 7 t
      = ((cfg1.win 7).blk t).view.read (Elt Ideal)
          (layer (V c main_v3) (V c main_v22) (V c main_arg5) (V c main_arg6) (V c main_v1) (V c main_arg8) (V c main_v2)) := by
  show (cfg1.win 7).cut (grid1.coords t) ((dat1 V c).after 7 t) = _
  rw [after1_7]
  unfold out1_7
  rw [View.canon_unit_zero zero_offsets]
  simp only [View.ld_unit_zero (S := S2000x128) zero_offsets, View.ld_unit_zero (S := S128x128) zero_offsets,
    View.ld_unit_zero (S := S1x128) zero_offsets]
  obtain ⟨e0, e1, e2, e3, e4, e5, e6, e7, e8, e9, e10, e11, e12, e13, e14, e15⟩ := index_facts t
  have a2 : iblk1 V c 2 t = V c main_arg5 := by
    funext y
    show V c main_arg5 (((cfg1.win 2).blk t).view.emb y) = V c main_arg5 y
    refine congrArg (V c main_arg5) (funext fun a => Fin.ext ?_)
    match a with
    | ⟨0, _⟩ => show win1_2.index t (0 : Fin 2) * 128 + 1 * (y 0).val = (y 0).val; omega
    | ⟨1, _⟩ => show win1_2.index t (1 : Fin 2) * 128 + 1 * (y 1).val = (y 1).val; omega
  have a3 : iblk1 V c 3 t = V c main_arg6 := by
    funext y
    show V c main_arg6 (((cfg1.win 3).blk t).view.emb y) = V c main_arg6 y
    refine congrArg (V c main_arg6) (funext fun a => Fin.ext ?_)
    match a with
    | ⟨0, _⟩ => show win1_3.index t (0 : Fin 2) * 128 + 1 * (y 0).val = (y 0).val; omega
    | ⟨1, _⟩ => show win1_3.index t (1 : Fin 2) * 128 + 1 * (y 1).val = (y 1).val; omega
  have a4 : iblk1 V c 4 t = V c main_v1 := by
    funext y
    show V c main_v1 (((cfg1.win 4).blk t).view.emb y) = V c main_v1 y
    refine congrArg (V c main_v1) (funext fun a => Fin.ext ?_)
    match a with
    | ⟨0, _⟩ => show win1_4.index t (0 : Fin 2) * 1 + 1 * (y 0).val = (y 0).val; omega
    | ⟨1, _⟩ => show win1_4.index t (1 : Fin 2) * 128 + 1 * (y 1).val = (y 1).val; omega
  have a5 : iblk1 V c 5 t = V c main_arg8 := by
    funext y
    show V c main_arg8 (((cfg1.win 5).blk t).view.emb y) = V c main_arg8 y
    refine congrArg (V c main_arg8) (funext fun a => Fin.ext ?_)
    match a with
    | ⟨0, _⟩ => show win1_5.index t (0 : Fin 2) * 128 + 1 * (y 0).val = (y 0).val; omega
    | ⟨1, _⟩ => show win1_5.index t (1 : Fin 2) * 128 + 1 * (y 1).val = (y 1).val; omega
  have a6 : iblk1 V c 6 t = V c main_v2 := by
    funext y
    show V c main_v2 (((cfg1.win 6).blk t).view.emb y) = V c main_v2 y
    refine congrArg (V c main_v2) (funext fun a => Fin.ext ?_)
    match a with
    | ⟨0, _⟩ => show win1_6.index t (0 : Fin 2) * 1 + 1 * (y 0).val = (y 0).val; omega
    | ⟨1, _⟩ => show win1_6.index t (1 : Fin 2) * 128 + 1 * (y 1).val = (y 1).val; omega
  rw [a2, a3, a4, a5, a6]
  funext j
  show k1_pay1 (iblk1 V c 0 t) (iblk1 V c 1 t) (V c main_arg5) (V c main_arg6) (V c main_v1) (V c main_arg8) (V c main_v2) j
    = layer (V c main_v3) (V c main_v22) (V c main_arg5) (V c main_arg6) (V c main_v1) (V c main_arg8) (V c main_v2)
        (((cfg1.win 7).blk t).view.emb j)
  refine tile_entry (iblk1 V c 0 t) (iblk1 V c 1 t) (V c main_arg5) (V c main_arg6) (V c main_v1) (V c main_arg8) (V c main_v2)
    (V c main_v3) (V c main_v22) j (((cfg1.win 7).blk t).view.emb j) (fun k => ?_) (fun k => ?_) ?_
  · show V c main_v3 (((cfg1.win 0).blk t).view.emb (ix2 (n0 := 2000) (n1 := 128) (j 0) k)) = V c main_v3 _
    refine congrArg (V c main_v3) (funext fun a => Fin.ext ?_)
    match a with
    | ⟨0, _⟩ =>
      show win1_0.index t (0 : Fin 2) * 2000 + 1 * (j 0).val = win1_7.index t (0 : Fin 2) * 2000 + 1 * (j 0).val
      omega
    | ⟨1, _⟩ =>
      show win1_0.index t (1 : Fin 2) * 128 + 1 * k.val = k.val
      omega
  · show V c main_v22 (((cfg1.win 1).blk t).view.emb (ix2 (n0 := 2000) (n1 := 128) (j 0) k)) = V c main_v22 _
    refine congrArg (V c main_v22) (funext fun a => Fin.ext ?_)
    match a with
    | ⟨0, _⟩ =>
      show win1_1.index t (0 : Fin 2) * 2000 + 1 * (j 0).val = win1_7.index t (0 : Fin 2) * 2000 + 1 * (j 0).val
      omega
    | ⟨1, _⟩ =>
      show win1_1.index t (1 : Fin 2) * 128 + 1 * k.val = k.val
      omega
  · show (j 1).val = win1_7.index t (1 : Fin 2) * 128 + 1 * (j 1).val
    omega

/-- An entry of the result array lies in point t's block iff each coordinate is in the block's range. -/
theorem mem_block (t : Fin cfg1.N) (i : S100000x128.Idx) :
    i ∈ ((cfg1.win 7).blk t).view.set ↔ ∀ a : Fin 2, win1_7.index t a * S2000x128.size a ≤ (i a).val
      ∧ (i a).val < win1_7.index t a * S2000x128.size a + S2000x128.size a := by
  show i ∈ ((View.whole main_v23).slice (win1_7.rect t)).set ↔ _
  rw [View.set_slice_whole, Rect.mem_set_unit]
  exact Iff.rfl

/-- Every entry of the result array is written by some point: row r by point r / 2000. -/
theorem covered (i : S100000x128.Idx) :
    ∃ t : Fin cfg1.N, (cfg1.win 7).flush t = true ∧ i ∈ ((cfg1.win 7).blk t).view.set := by
  have hi0 : (i 0).val < 100000 := (i 0).isLt
  have hi1 : (i 1).val < 128 := (i 1).isLt
  have hN : cfg1.N = 50 := N_1
  let t : Fin cfg1.N := ⟨(i 0).val / 2000, by rw [hN]; omega⟩
  have ht : t.val = (i 0).val / 2000 := rfl
  obtain ⟨e0, e1, e2, e3, e4, e5, e6, e7, e8, e9, e10, e11, e12, e13, e14, e15⟩ := index_facts t
  refine ⟨t, flush1_7 t, ?_⟩
  rw [mem_block]
  intro a
  match a with
  | ⟨0, _⟩ =>
    show win1_7.index t (0 : Fin 2) * 2000 ≤ (i 0).val ∧ (i 0).val < win1_7.index t (0 : Fin 2) * 2000 + 2000
    omega
  | ⟨1, _⟩ =>
    show win1_7.index t (1 : Fin 2) * 128 ≤ (i 1).val ∧ (i 1).val < win1_7.index t (1 : Fin 2) * 128 + 128
    omega

/-- The result array after the kernel: the layer of the arrays as the kernel finds them. -/
theorem result_array (c : Dev nD) :
    (dat1 V c).arrAt 7 cfg1.N
      = layer (V c main_v3) (V c main_v22) (V c main_arg5) (V c main_arg6) (V c main_v1) (V c main_arg8) (V c main_v2) :=
  (dat1 V c).arrAt_eq_of_cover 7
    (layer (V c main_v3) (V c main_v22) (V c main_arg5) (V c main_arg6) (V c main_v1) (V c main_arg8) (V c main_v2))
    (fun t _ => flushed_eq V c t) covered

end Cert.KernelIdeal.SecondLayer

end
-- ==== Proof.ReferenceValue.lean ====
/-
  The reference, stage by stage, as the same functions the kernels' result arrays are.
  Its first stage, relu(x @ W1 + b1), at (r, q) is max(sum_k x(r, k) * W1(k, q) + b1(q), 0): the first layer.
  Its edge aggregation (gather the rows named by the edge sources, add them up per edge destination, divide by the
  in-degree clamped below at one) is kept as ONE function of the hidden features and the two index arrays: both
  programs apply the very same chain of host operations, so it is never opened.
  Its last stages, relu(relu(h @ Ws + hn @ Wn + bs) @ W2 + b2), at (r, q) are the second layer's entry.
-/
import proofs.«154685_j49357764166103_1_alg».proof.Proof.Gen.ReferenceIdeal.Read
import proofs.«154685_j49357764166103_1_alg».proof.Proof.BiasRow
import proofs.«154685_j49357764166103_1_alg».proof.Proof.FirstLayerArray
import proofs.«154685_j49357764166103_1_alg».proof.Proof.SecondLayerArray

set_option maxRecDepth 16384

noncomputable section

namespace Cert.ReferenceIdeal.RefValue

open Cert.ReferenceIdeal Cert.ReferenceIdeal.Gen Idealize.ShloMosaic Idealize.ShloMosaic.ValueIdx
open Cert.KernelIdeal.Tile (biasRow biasRow_apply)

/-! ## Where each stage reads its operands -/

theorem bias_at1 (r : Fin 100000) (q : Fin 128) : Read.idx_main_v1 (Read.idx_main_v2 (ix2 r q)) = ix1 q :=
  funext fun a => Fin.ext (by match a with | ⟨0, _⟩ => rfl)
theorem bias_at2 (r : Fin 100000) (q : Fin 128) : Read.idx_main_v27 (Read.idx_main_v28 (ix2 r q)) = ix1 q :=
  funext fun a => Fin.ext (by match a with | ⟨0, _⟩ => rfl)
theorem bias_at3 (r : Fin 100000) (q : Fin 128) : Read.idx_main_v32 (Read.idx_main_v33 (ix2 r q)) = ix1 q :=
  funext fun a => Fin.ext (by match a with | ⟨0, _⟩ => rfl)

theorem left_at0 (r : Fin 100000) (q k : Fin 128) : Read.lidx_main_v0 (ix2 r q) k = ix2 r k :=
  funext fun a => Fin.ext (by match a with | ⟨0, _⟩ => rfl | ⟨1, _⟩ => rfl)
theorem right_at0 (r : Fin 100000) (q k : Fin 128) : Read.ridx_main_v0 (ix2 r q) k = ix2 k q :=
  funext fun a => Fin.ext (by match a with | ⟨0, _⟩ => rfl | ⟨1, _⟩ => rfl)
theorem left_at24 (r : Fin 100000) (q k : Fin 128) : Read.lidx_main_v24 (ix2 r q) k = ix2 r k :=
  funext fun a => Fin.ext (by match a with | ⟨0, _⟩ => rfl | ⟨1, _⟩ => rfl)
theorem right_at24 (r : Fin 100000) (q k : Fin 128) : Read.ridx_main_v24 (ix2 r q) k = ix2 k q :=
  funext fun a => Fin.ext (by match a with | ⟨0, _⟩ => rfl | ⟨1, _⟩ => rfl)
theorem left_at25 (r : Fin 100000) (q k : Fin 128) : Read.lidx_main_v25 (ix2 r q) k = ix2 r k :=
  funext fun a => Fin.ext (by match a with | ⟨0, _⟩ => rfl | ⟨1, _⟩ => rfl)
theorem right_at25 (r : Fin 100000) (q k : Fin 128) : Read.ridx_main_v25 (ix2 r q) k = ix2 k q :=
  funext fun a => Fin.ext (by match a with | ⟨0, _⟩ => rfl | ⟨1, _⟩ => rfl)
theorem left_at31 (r : Fin 100000) (q k : Fin 128) : Read.lidx_main_v31 (ix2 r q) k = ix2 r k :=
  funext fun a => Fin.ext (by match a with | ⟨0, _⟩ => rfl | ⟨1, _⟩ => rfl)
theorem right_at31 (r : Fin 100000) (q k : Fin 128) : Read.ridx_main_v31 (ix2 r q) k = ix2 k q :=
  funext fun a => Fin.ext (by match a with | ⟨0, _⟩ => rfl | ⟨1, _⟩ => rfl)

/-! ## The first stage -/

/-- relu(x @ W1 + b1) at (r, q). -/
theorem hidden_entry (x0 : FVec Ideal S100000x128 .f32) (x3 : FVec Ideal S128x128 .f32) (x4 : FVec Ideal S128 .f32)
    (r : Fin 100000) (q : Fin 128) :
    Read.val_main_v4 (F := Ideal) x0 x3 x4 (ix2 r q)
      = max ((∑ k : Fin 128, x0 (ix2 r k) * x3 (ix2 k q)) + x4 (ix1 q)) (Ideal.ofBits .f32 0x00000000#32) := by
  rw [Read.val_main_v4_apply, Read.val_main_v3_apply, Read.val_main_v0_apply, Read.val_main_v2_apply,
    Read.val_main_v1_apply, Read.val_main_call0_v0_apply, Read.val_main_call0_cst_apply]
  simp only [left_at0, right_at0, bias_at1, Ideal.maximumf_def, Ideal.addf_def, Ideal.ofBits_def]

/-- The reference's hidden features are the first layer of the features, the first weights and the first bias laid
    out as a row. -/
theorem hidden_eq (x0 : FVec Ideal S100000x128 .f32) (x3 : FVec Ideal S128x128 .f32) (x4 : FVec Ideal S128 .f32) :
    Read.val_main_v4 (F := Ideal) x0 x3 x4 = Cert.KernelIdeal.FirstLayer.layer x0 x3 (biasRow x4) := by
  funext i
  obtain ⟨r, q, rfl⟩ : ∃ (r : Fin 100000) (q : Fin 128), i = ix2 r q := ⟨i 0, i 1, eq_ix2 i⟩
  rw [hidden_entry, Cert.KernelIdeal.FirstLayer.layer_apply, biasRow_apply]

/-! ## The edge aggregation, unopened -/

/-- Mean of the hidden rows over each node's incoming edges, as the chain of host operations both programs apply. -/
def aggregate (h : FVec Ideal S100000x128 .f32) (src dst : (⟨S1600000, .i32⟩ : BufTy).Contents (Elt Ideal)) :
    FVec Ideal S100000x128 .f32 :=
  Host.divf (F := Ideal)
    (Host.scatterAdd (F := Ideal) scatter_S100000x128_S1600000x1_S1600000x128_1_0_0_1 (Read.val_main_v12 (F := Ideal))
      (Read.val_main_v13 (F := Ideal) dst)
      (Host.gather gather_S100000x128_S1600000x1_S1600000x128_1_0_n_n_0_1_1128 h (Read.val_main_v10 (F := Ideal) src)))
    (Read.val_main_v22 (F := Ideal) dst)

/-- The reference's neighbour features are the aggregation of its hidden features. -/
theorem neighbours_eq (x0 : FVec Ideal S100000x128 .f32) (x1 x2 : (⟨S1600000, .i32⟩ : BufTy).Contents (Elt Ideal))
    (x3 : FVec Ideal S128x128 .f32) (x4 : FVec Ideal S128 .f32) :
    Read.val_main_v23 (F := Ideal) x0 x1 x2 x3 x4 = aggregate (Read.val_main_v4 (F := Ideal) x0 x3 x4) x1 x2 := rfl

/-! ## The last stages -/

/-- relu(relu(h @ Ws + hn @ Wn + bs) @ W2 + b2) at (r, q), over the reference's own hidden and neighbour features. -/
theorem output_entry (x0 : FVec Ideal S100000x128 .f32) (x1 x2 : (⟨S1600000, .i32⟩ : BufTy).Contents (Elt Ideal))
    (x3 : FVec Ideal S128x128 .f32) (x4 : FVec Ideal S128 .f32) (x5 x6 : FVec Ideal S128x128 .f32)
    (x7 : FVec Ideal S128 .f32) (x8 : FVec Ideal S128x128 .f32) (x9 : FVec Ideal S128 .f32)
    (r : Fin 100000) (q : Fin 128) :
    Read.val_main_v35 (F := Ideal) x0 x1 x2 x3 x4 x5 x6 x7 x8 x9 (ix2 r q)
      = max ((∑ k : Fin 128,
              max (((∑ j : Fin 128, Read.val_main_v4 (F := Ideal) x0 x3 x4 (ix2 r j) * x5 (ix2 j k))
                      + (∑ j : Fin 128, Read.val_main_v23 (F := Ideal) x0 x1 x2 x3 x4 (ix2 r j) * x6 (ix2 j k)))
                    + x7 (ix1 k)) (Ideal.ofBits .f32 0x00000000#32)
                * x8 (ix2 k q))
             + x9 (ix1 q)) (Ideal.ofBits .f32 0x00000000#32) := by
  rw [Read.val_main_v35_apply, Read.val_main_v34_apply, Read.val_main_v31_apply, Read.val_main_v33_apply,
    Read.val_main_v32_apply, Read.val_main_call2_v0_apply, Read.val_main_call2_cst_apply]
  simp only [left_at31, right_at31, bias_at3]
  simp only [Read.val_main_v30_apply, Read.val_main_v29_apply, Read.val_main_v26_apply, Read.val_main_v24_apply,
    Read.val_main_v25_apply, Read.val_main_v28_apply, Read.val_main_v27_apply, Read.val_main_call1_v0_apply,
    Read.val_main_call1_cst_apply, left_at24, right_at24, left_at25, right_at25, bias_at2,
    Ideal.maximumf_def, Ideal.addf_def, Ideal.ofBits_def]

/-- The reference's result is the second layer of its hidden features, its neighbour features, the weights and the
    two biases laid out as rows. -/
theorem output_eq (x0 : FVec Ideal S100000x128 .f32) (x1 x2 : (⟨S1600000, .i32⟩ : BufTy).Contents (Elt Ideal))
    (x3 : FVec Ideal S128x128 .f32) (x4 : FVec Ideal S128 .f32) (x5 x6 : FVec Ideal S128x128 .f32)
    (x7 : FVec Ideal S128 .f32) (x8 : FVec Ideal S128x128 .f32) (x9 : FVec Ideal S128 .f32) :
    Read.val_main_v35 (F := Ideal) x0 x1 x2 x3 x4 x5 x6 x7 x8 x9
      = Cert.KernelIdeal.SecondLayer.layer (Read.val_main_v4 (F := Ideal) x0 x3 x4)
          (Read.val_main_v23 (F := Ideal) x0 x1 x2 x3 x4) x5 x6 (biasRow x7) x8 (biasRow x9) := by
  funext i
  obtain ⟨r, q, rfl⟩ : ∃ (r : Fin 100000) (q : Fin 128), i = ix2 r q := ⟨i 0, i 1, eq_ix2 i⟩
  rw [output_entry, Cert.KernelIdeal.SecondLayer.layer_apply]
  simp only [biasRow_apply]

end Cert.ReferenceIdeal.RefValue

end
-- ==== Proof.KernelValue.lean ====
/-
  The program's stages composed. When the first kernel is entered the feature, weight and index arrays are as
  launched and the three biases lie as rows; it leaves the first layer of them in its result array. The host then forms
  the neighbour features from that array and the two index arrays, touching nothing else; the second kernel is entered
  with the hidden features, the neighbour features, the launched weights and the bias rows, and leaves the second layer
  of them in the program's result. Stage by stage this is the reference's own chain, so the result buffer ends at
  the reference's result function of the launched arguments.
-/
import proofs.«154685_j49357764166103_1_alg».proof.Proof.WholeRun
import proofs.«154685_j49357764166103_1_alg».proof.Proof.BiasRow
import proofs.«154685_j49357764166103_1_alg».proof.Proof.FirstLayerArray
import proofs.«154685_j49357764166103_1_alg».proof.Proof.SecondLayerArray
import proofs.«154685_j49357764166103_1_alg».proof.Proof.ReferenceValue
import Idealize.ShloMosaic.Lib.StableHlo.Run

set_option maxRecDepth 16384

noncomputable section

namespace Cert.KernelIdeal.Stages

open Cert.KernelIdeal Cert.KernelIdeal.Gen
open Idealize.ShloMosaic Idealize.ShloMosaic.TcCoe Idealize.SL.Sem Idealize.ShloMosaic.StableHlo
open Cert.KernelIdeal.Tile (biasRow)
open Cert.ReferenceIdeal.RefValue (aggregate)

variable (m : (ℓ : Loc nD τ sig) → Buf (Elt Ideal) ℓ) (ρ : Dev nD → PrngReg)

/-! ## The arrays when the first kernel is entered: the arguments as launched, the biases as rows -/

theorem first_entry_main_arg0 (c : Dev nD) : W1 m ρ c (Proc.devRef .tc main_arg0) = m ((c : Thread nD τ).loc main_arg0) := by
  show StableHlo.after hostOps0 (W0 m ρ c) (Proc.devRef .tc main_arg0) = _
  after_results
theorem first_entry_main_arg1 (c : Dev nD) : W1 m ρ c (Proc.devRef .tc main_arg1) = m ((c : Thread nD τ).loc main_arg1) := by
  show StableHlo.after hostOps0 (W0 m ρ c) (Proc.devRef .tc main_arg1) = _
  after_results
theorem first_entry_main_arg2 (c : Dev nD) : W1 m ρ c (Proc.devRef .tc main_arg2) = m ((c : Thread nD τ).loc main_arg2) := by
  show StableHlo.after hostOps0 (W0 m ρ c) (Proc.devRef .tc main_arg2) = _
  after_results
theorem first_entry_main_arg3 (c : Dev nD) : W1 m ρ c (Proc.devRef .tc main_arg3) = m ((c : Thread nD τ).loc main_arg3) := by
  show StableHlo.after hostOps0 (W0 m ρ c) (Proc.devRef .tc main_arg3) = _
  after_results
theorem first_entry_main_arg5 (c : Dev nD) : W1 m ρ c (Proc.devRef .tc main_arg5) = m ((c : Thread nD τ).loc main_arg5) := by
  show StableHlo.after hostOps0 (W0 m ρ c) (Proc.devRef .tc main_arg5) = _
  after_results
theorem first_entry_main_arg6 (c : Dev nD) : W1 m ρ c (Proc.devRef .tc main_arg6) = m ((c : Thread nD τ).loc main_arg6) := by
  show StableHlo.after hostOps0 (W0 m ρ c) (Proc.devRef .tc main_arg6) = _
  after_results
theorem first_entry_main_arg8 (c : Dev nD) : W1 m ρ c (Proc.devRef .tc main_arg8) = m ((c : Thread nD τ).loc main_arg8) := by
  show StableHlo.after hostOps0 (W0 m ρ c) (Proc.devRef .tc main_arg8) = _
  after_results
theorem first_entry_main_v0 (c : Dev nD) : W1 m ρ c (Proc.devRef .tc main_v0) = biasRow (m ((c : Thread nD τ).loc main_arg4)) := by
  show StableHlo.after hostOps0 (W0 m ρ c) (Proc.devRef .tc main_v0) = _
  after_results
  rfl
theorem first_entry_main_v1 (c : Dev nD) : W1 m ρ c (Proc.devRef .tc main_v1) = biasRow (m ((c : Thread nD τ).loc main_arg7)) := by
  show StableHlo.after hostOps0 (W0 m ρ c) (Proc.devRef .tc main_v1) = _
  after_results
  rfl
theorem first_entry_main_v2 (c : Dev nD) : W1 m ρ c (Proc.devRef .tc main_v2) = biasRow (m ((c : Thread nD τ).loc main_arg9)) := by
  show StableHlo.after hostOps0 (W0 m ρ c) (Proc.devRef .tc main_v2) = _
  after_results
  rfl

/-- The first kernel leaves the first layer of the launched features, weights and bias in its result array. -/
theorem hidden (c : Dev nD) :
    W2 m ρ c (Proc.devRef .tc main_v3) = (FirstLayer.layer (m ((c : Thread nD τ).loc main_arg0)) (m ((c : Thread nD τ).loc main_arg3)) (biasRow (m ((c : Thread nD τ).loc main_arg4)))) := by
  refine (W2_arr m ρ c 3).trans ?_
  rw [FirstLayer.result_array (V1 m ρ) c]
  show FirstLayer.layer (W1 m ρ c (Proc.devRef .tc main_arg0)) (W1 m ρ c (Proc.devRef .tc main_arg3)) (W1 m ρ c (Proc.devRef .tc main_v0)) = _
  rw [first_entry_main_arg0, first_entry_main_arg3, first_entry_main_v0]

/-! ## The arrays when the second kernel is entered -/

/-- Outside its own result array the first kernel changes nothing. -/
theorem after_first_main_arg1 (c : Dev nD) : W2 m ρ c (Proc.devRef .tc main_arg1) = m ((c : Thread nD τ).loc main_arg1) :=
  (W2_of_ne m ρ c main_arg1 (by decide)).trans (first_entry_main_arg1 m ρ c)
theorem after_first_main_arg2 (c : Dev nD) : W2 m ρ c (Proc.devRef .tc main_arg2) = m ((c : Thread nD τ).loc main_arg2) :=
  (W2_of_ne m ρ c main_arg2 (by decide)).trans (first_entry_main_arg2 m ρ c)
theorem after_first_main_arg5 (c : Dev nD) : W2 m ρ c (Proc.devRef .tc main_arg5) = m ((c : Thread nD τ).loc main_arg5) :=
  (W2_of_ne m ρ c main_arg5 (by decide)).trans (first_entry_main_arg5 m ρ c)
theorem after_first_main_arg6 (c : Dev nD) : W2 m ρ c (Proc.devRef .tc main_arg6) = m ((c : Thread nD τ).loc main_arg6) :=
  (W2_of_ne m ρ c main_arg6 (by decide)).trans (first_entry_main_arg6 m ρ c)
theorem after_first_main_arg8 (c : Dev nD) : W2 m ρ c (Proc.devRef .tc main_arg8) = m ((c : Thread nD τ).loc main_arg8) :=
  (W2_of_ne m ρ c main_arg8 (by decide)).trans (first_entry_main_arg8 m ρ c)
theorem after_first_main_v1 (c : Dev nD) : W2 m ρ c (Proc.devRef .tc main_v1) = biasRow (m ((c : Thread nD τ).loc main_arg7)) :=
  (W2_of_ne m ρ c main_v1 (by decide)).trans (first_entry_main_v1 m ρ c)
theorem after_first_main_v2 (c : Dev nD) : W2 m ρ c (Proc.devRef .tc main_v2) = biasRow (m ((c : Thread nD τ).loc main_arg9)) :=
  (W2_of_ne m ρ c main_v2 (by decide)).trans (first_entry_main_v2 m ρ c)

/-- The host's aggregation writes only its own intermediate buffers. -/
theorem second_entry_keeps_main_v3 (c : Dev nD) : W3 m ρ c (Proc.devRef .tc main_v3) = W2 m ρ c (Proc.devRef .tc main_v3) :=
  StableHlo.after_of_forall_not_mem (b := Proc.devRef .tc main_v3) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem second_entry_keeps_main_arg5 (c : Dev nD) : W3 m ρ c (Proc.devRef .tc main_arg5) = W2 m ρ c (Proc.devRef .tc main_arg5) :=
  StableHlo.after_of_forall_not_mem (b := Proc.devRef .tc main_arg5) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem second_entry_keeps_main_arg6 (c : Dev nD) : W3 m ρ c (Proc.devRef .tc main_arg6) = W2 m ρ c (Proc.devRef .tc main_arg6) :=
  StableHlo.after_of_forall_not_mem (b := Proc.devRef .tc main_arg6) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem second_entry_keeps_main_v1 (c : Dev nD) : W3 m ρ c (Proc.devRef .tc main_v1) = W2 m ρ c (Proc.devRef .tc main_v1) :=
  StableHlo.after_of_forall_not_mem (b := Proc.devRef .tc main_v1) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem second_entry_keeps_main_arg8 (c : Dev nD) : W3 m ρ c (Proc.devRef .tc main_arg8) = W2 m ρ c (Proc.devRef .tc main_arg8) :=
  StableHlo.after_of_forall_not_mem (b := Proc.devRef .tc main_arg8) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem second_entry_keeps_main_v2 (c : Dev nD) : W3 m ρ c (Proc.devRef .tc main_v2) = W2 m ρ c (Proc.devRef .tc main_v2) :=
  StableHlo.after_of_forall_not_mem (b := Proc.devRef .tc main_v2) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

set_option maxHeartbeats 4000000 in
/-- The neighbour features the second kernel finds: the aggregation of the first kernel's result over the launched
    edge arrays — the reference's own chain of host operations, read back and never opened. -/
theorem neighbours (c : Dev nD) :
    W3 m ρ c (Proc.devRef .tc main_v22)
      = aggregate (W2 m ρ c (Proc.devRef .tc main_v3)) (W2 m ρ c (Proc.devRef .tc main_arg1)) (W2 m ρ c (Proc.devRef .tc main_arg2)) := by
  show StableHlo.after hostOps1 (W2 m ρ c) (Proc.devRef .tc main_v22) = _
  after_results_simp
  rfl

/-- The program's result array: the second layer of the hidden features, their aggregation, the launched weights
    and the bias rows. -/
theorem result (c : Dev nD) :
    W4 m ρ c (Proc.devRef .tc main_v23)
      = SecondLayer.layer (FirstLayer.layer (m ((c : Thread nD τ).loc main_arg0)) (m ((c : Thread nD τ).loc main_arg3)) (biasRow (m ((c : Thread nD τ).loc main_arg4))))
          (aggregate (FirstLayer.layer (m ((c : Thread nD τ).loc main_arg0)) (m ((c : Thread nD τ).loc main_arg3)) (biasRow (m ((c : Thread nD τ).loc main_arg4)))) (m ((c : Thread nD τ).loc main_arg1)) (m ((c : Thread nD τ).loc main_arg2)))
          (m ((c : Thread nD τ).loc main_arg5)) (m ((c : Thread nD τ).loc main_arg6)) (biasRow (m ((c : Thread nD τ).loc main_arg7))) (m ((c : Thread nD τ).loc main_arg8)) (biasRow (m ((c : Thread nD τ).loc main_arg9))) := by
  refine (W4_arr m ρ c 7).trans ?_
  rw [SecondLayer.result_array (V3 m ρ) c]
  show SecondLayer.layer (W3 m ρ c (Proc.devRef .tc main_v3)) (W3 m ρ c (Proc.devRef .tc main_v22)) (W3 m ρ c (Proc.devRef .tc main_arg5))
    (W3 m ρ c (Proc.devRef .tc main_arg6)) (W3 m ρ c (Proc.devRef .tc main_v1)) (W3 m ρ c (Proc.devRef .tc main_arg8)) (W3 m ρ c (Proc.devRef .tc main_v2)) = _
  rw [neighbours, second_entry_keeps_main_v3, second_entry_keeps_main_arg5, second_entry_keeps_main_arg6,
    second_entry_keeps_main_v1, second_entry_keeps_main_arg8, second_entry_keeps_main_v2,
    hidden, after_first_main_arg1, after_first_main_arg2, after_first_main_arg5, after_first_main_arg6,
    after_first_main_arg8, after_first_main_v1, after_first_main_v2]

/-- And that is the reference's result function of the launched arguments. -/
theorem result_is_reference (c : Dev nD) :
    W4 m ρ c (Proc.devRef .tc main_v23)
      = Cert.ReferenceIdeal.Read.val_main_v35 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  rw [result, Cert.ReferenceIdeal.RefValue.output_eq, Cert.ReferenceIdeal.RefValue.neighbours_eq,
    Cert.ReferenceIdeal.RefValue.hidden_eq]

/-- The run, read: every weakly fair execution terminates with the result buffer at the reference's result function
    of the launched arguments, and the arguments unchanged. -/
theorem run : θ_run defs (onTc (τ := τ) (main (F := Ideal))) ⟨m, fun _ => 0, ρ⟩ (fun r => ∀ c : Dev nD,
      r.2.mem ((c.tc : Thread nD τ).loc main_v23)
        = Cert.ReferenceIdeal.Read.val_main_v35 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c).1.trans (result_is_reference m ρ c), (h c).2⟩) (Whole.run_result m ρ)

end Cert.KernelIdeal.Stages

end
-- ==== Proof.lean ====
/-
  The certificate of the two-kernel GraphSAGE block against its jnp reference, on the extended reals.

  Both programs compute h = relu(x @ W1 + b1), the mean hn of h over each node's incoming edges, and
  relu(relu(h @ Ws + hn @ Wn + bs) @ W2 + b2). The kernel program tiles the two dense parts over 50 blocks of 2000 rows
  and rounds matmul operands to bf16 (the identity on the extended reals); the edge aggregation is the same chain of host
  operations in both programs. A tile of a matmul accumulated from zero is the plain sum over the contracted index, the
  reference's dot_general is the same sum, and nothing else is rearranged: the claim needs no law beyond reading each
  side entry by entry, and never uses that the inputs are finite.

  Frames: the two kernel programs' frames are the generated ones; the reference has no kernel, and its frame is its
  generated run with the result dropped. No operation was rewritten by the idealization, so nothing is to be preserved.
-/
import proofs.«154685_j49357764166103_1_alg».proof.Defs
import proofs.«154685_j49357764166103_1_alg».proof.Proof.Gen.Kernel
import proofs.«154685_j49357764166103_1_alg».proof.Proof.Gen.Kernel.Skeleton
import proofs.«154685_j49357764166103_1_alg».proof.Proof.Gen.Kernel.Launch
import proofs.«154685_j49357764166103_1_alg».proof.Proof.Gen.Kernel.Points
import proofs.«154685_j49357764166103_1_alg».proof.Proof.Gen.Kernel.Frame
import proofs.«154685_j49357764166103_1_alg».proof.Proof.Gen.KernelIdeal
import proofs.«154685_j49357764166103_1_alg».proof.Proof.Gen.KernelIdeal.Skeleton
import proofs.«154685_j49357764166103_1_alg».proof.Proof.Gen.KernelIdeal.Launch
import proofs.«154685_j49357764166103_1_alg».proof.Proof.Gen.KernelIdeal.Points
import proofs.«154685_j49357764166103_1_alg».proof.Proof.Gen.KernelIdeal.Frame
import proofs.«154685_j49357764166103_1_alg».proof.Proof.Gen.ReferenceIdeal
import proofs.«154685_j49357764166103_1_alg».proof.Proof.Gen.ReferenceIdeal.Read
import proofs.«154685_j49357764166103_1_alg».proof.Proof.Gen.Pre_finite_inputs
import proofs.«154685_j49357764166103_1_alg».proof.Proof.KernelValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the ten arguments both programs end with the result buffer at one function of them: the
    reference's result function, which the kernel program's stages compose to. -/
theorem algebraic : Cert.algebraic_KernelIdeal_ReferenceIdeal := by
  intro m ρ m' ρ' _ hagree
  refine ⟨_, Cert.KernelIdeal.Stages.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9⟩ := hagree c
  rw [a0, a1, a2, a3, a4, a5, a6, a7, a8, a9]
  exact Cert.ReferenceIdeal.Read.val_main_v35_eq _ _ _ _ _ _ _ _ _ _

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
